-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S50257x512 : Shape := ⟨2, ![50257, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x128 : Shape := ⟨2, ![1024, 128]⟩
abbrev S128 : Shape := ⟨1, ![128]⟩
abbrev S_ : Shape := ⟨0, ![]⟩

class Facts : Prop where
  bcast_S_S50257x512 : S_.BroadcastsInDim S50257x512 (![] : Fin 0 → Fin S50257x512.rank)
  reducesTo_S50257x512_S_d0_1 : S50257x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S1024 .f32) (main_arg6 : FVec F S1024x128 .f32) (main_arg7 : FVec F S128 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x128 .f32 := Host.absf main_arg6
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S32x1024 32) (main_arg1 : FVec F S50257x512 .f32) (main_arg2 : FVec F S512x512 .f32) (main_arg3 : FVec F S512 .f32) (main_arg4 : FVec F S512x1024 .f32) (main_arg5 : FVec F S1024 .f32) (main_arg6 : FVec F S1024x128 .f32) (main_arg7 : FVec F S128 .f32) : IVec S_ 1 :=
  let main_v0 : FVec F S50257x512 .f32 := Host.absf main_arg1
  let main_cst : FVec F S_ .f32 := constant S_ .f32 0x7F800000#32
  let main_v1 : FVec F S50257x512 .f32 := broadcastInDim S50257x512 ![] bcast_S_S50257x512 main_cst
  let main_v2 : IVec S50257x512 1 := cmpf .olt main_v0 main_v1
  let main_c : IVec S_ 1 := constantI S_ 1 1#1
  let main_v3 : IVec S_ 1 := (fun x v => Host.reduce IntOp.andi x v reducesTo_S50257x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_v13 main_v16
-- ==== Kernel.lean ====
abbrev S32x1024 : Shape := ⟨2, ![32, 1024]⟩
abbrev S50257x512 : Shape := ⟨2, ![50257, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x128 : Shape := ⟨2, ![1024, 128]⟩
abbrev S128 : Shape := ⟨1, ![128]⟩
abbrev S32768 : Shape := ⟨1, ![32768]⟩
abbrev S_ : Shape := ⟨0, ![]⟩
abbrev S32768x1 : Shape := ⟨2, ![32768, 1]⟩
abbrev S32768x512 : Shape := ⟨2, ![32768, 512]⟩
abbrev S1x512 : Shape := ⟨2, ![1, 512]⟩
abbrev S1x1024 : Shape := ⟨2, ![1, 1024]⟩
abbrev S1x128 : Shape := ⟨2, ![1, 128]⟩
abbrev S32768x128 : Shape := ⟨2, ![32768, 128]⟩
abbrev S2048x512 : Shape := ⟨2, ![2048, 512]⟩
abbrev S2048x128 : Shape := ⟨2, ![2048, 128]⟩
abbrev S2048x1024 : Shape := ⟨2, ![2048, 1024]⟩

abbrev nBuf : Space → Nat
  | .hbm => 27
  | .vmem => 10
  | .smem => 0
  | _ => 0

abbrev bufTy : (tb : Table) → Fin (tcTables nBuf tb) → BufTy
  | .hbm, ⟨0, _⟩ => ⟨S32x1024, .i32⟩
  | .hbm, ⟨1, _⟩ => ⟨S50257x512, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S32768, .i32⟩
  | .hbm, ⟨9, _⟩ => ⟨S_, .i32⟩
  | .hbm, ⟨10, _⟩ => ⟨S32768, .i32⟩
  | .hbm, ⟨11, _⟩ => ⟨S32768, .i1⟩
  | .hbm, ⟨12, _⟩ => ⟨S_, .i32⟩
  | .hbm, ⟨13, _⟩ => ⟨S32768, .i32⟩
  | .hbm, ⟨14, _⟩ => ⟨S32768, .i32⟩
  | .hbm, ⟨15, _⟩ => ⟨S32768, .i32⟩
  | .hbm, ⟨16, _⟩ => ⟨S32768x1, .i32⟩
  | .hbm, ⟨17, _⟩ => ⟨S32768x512, .f32⟩
  | .hbm, ⟨18, _⟩ => ⟨S32768x512, .bf16⟩
  | .hbm, ⟨19, _⟩ => ⟨S512x512, .f32⟩
  | .hbm, ⟨20, _⟩ => ⟨S512x512, .bf16⟩
  | .hbm, ⟨21, _⟩ => ⟨S512x1024, .bf16⟩
  | .hbm, ⟨22, _⟩ => ⟨S1024x128, .bf16⟩
  | .hbm, ⟨23, _⟩ => ⟨S1x512, .f32⟩
  | .hbm, ⟨24, _⟩ => ⟨S1x1024, .f32⟩
  | .hbm, ⟨25, _⟩ => ⟨S1x128, .f32⟩
  | .hbm, ⟨26, _⟩ => ⟨S32768x128, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S1x512, .f32⟩
  | .local _ .vmem, ⟨4, _⟩ => ⟨S512x1024, .bf16⟩
  | .local _ .vmem, ⟨5, _⟩ => ⟨S1x1024, .f32⟩
  | .local _ .vmem, ⟨6, _⟩ => ⟨S1024x128, .bf16⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S32x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32x1024_S32768 : S32x1024.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bitsLt_bf16_f32 : FTy.bits .bf16 < FTy.bits .f32
  transposes_S512x512_S512x512_1_0 : S512x512.Transposes [1, 0] S512x512
  shapeCasts_S512_S1x512 : S512.ShapeCasts S1x512
  shapeCasts_S1024_S1x1024 : S1024.ShapeCasts S1x1024
  shapeCasts_S128_S1x128 : S128.ShapeCasts S1x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  gather_S50257x512_S32768x1_S32768x512_1_0_n_n_0_1_1512_wf : GatherDims.WF S50257x512 S32768x1 S32768x512 [1] [0] [] [0] [] 1 ![1, 512]
  dot_S2048x512_S512x512_S2048x512_1_0_0_1_n_n_wf : DotDims.WF S2048x512 S512x512 S2048x512 [1] [0] [0] [1] [] []
  dot_S2048x512_S512x1024_S2048x1024_1_0_0_1_n_n_wf : DotDims.WF S2048x512 S512x1024 S2048x1024 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .bf16 = 32 ∨ (Rect.block (s := S32768x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S32768x128.size a
  hwx0_7 : ∀ i : grid0.Coords, EltTy.bits .f32 = 32 ∨ (Rect.block (s := S32768x128) S2048x128.size (cc0_transform_7 i) (hinb0_7 i)).WholeWords (EltTy.packing .f32)

variable [Facts₀]

def gather_S50257x512_S32768x1_S32768x512_1_0_n_n_0_1_1512 : GatherDims S50257x512 S32768x1 S32768x512 where
  offsetDims := [1]
  collapsedSliceDims := [0]
  operandBatchingDims := []
  startIndicesBatchingDims := []
  startIndexMap := [0]
  indexVectorDim := 1
  sliceSizes := ![1, 512]
  wf := gather_S50257x512_S32768x1_S32768x512_1_0_n_n_0_1_1512_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024 : Shape := ⟨2, ![32, 1024]⟩
abbrev S50257x512 : Shape := ⟨2, ![50257, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S32x1024x1 : Shape := ⟨3, ![32, 1024, 1]⟩
abbrev S32x1024x512 : Shape := ⟨3, ![32, 1024, 512]⟩
abbrev S1x1x512 : Shape := ⟨3, ![1, 1, 512]⟩
abbrev S32x1024x1024 : Shape := ⟨3, ![32, 1024, 1024]⟩
abbrev S1x1x1024 : Shape := ⟨3, ![1, 1, 1024]⟩
abbrev S32x1024x128 : Shape := ⟨3, ![32, 1024, 128]⟩
abbrev S1x1x128 : Shape := ⟨3, ![1, 1, 128]⟩
abbrev S32768x128 : Shape := ⟨2, ![32768, 128]⟩

abbrev nBuf : Space → Nat
  | .hbm => 36
  | .vmem => 0
  | .smem => 0
  | _ => 0

abbrev bufTy : (tb : Table) → Fin (tcTables nBuf tb) → BufTy
  | .hbm, ⟨0, _⟩ => ⟨S32x1024, .i32⟩
  | .hbm, ⟨1, _⟩ => ⟨S50257x512, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S_, .i32⟩
  | .hbm, ⟨9, _⟩ => ⟨S32x1024, .i32⟩
  | .hbm, ⟨10, _⟩ => ⟨S32x1024, .i1⟩
  | .hbm, ⟨11, _⟩ => ⟨S_, .i32⟩
  | .hbm, ⟨12, _⟩ => ⟨S32x1024, .i32⟩
  | .hbm, ⟨13, _⟩ => ⟨S32x1024, .i32⟩
  | .hbm, ⟨14, _⟩ => ⟨S32x1024, .i32⟩
  | .hbm, ⟨15, _⟩ => ⟨S32x1024x1, .i32⟩
  | .hbm, ⟨16, _⟩ => ⟨S32x1024x512, .f32⟩
  | .hbm, ⟨17, _⟩ => ⟨S32x1024x512, .f32⟩
  | .hbm, ⟨18, _⟩ => ⟨S1x1x512, .f32⟩
  | .hbm, ⟨19, _⟩ => ⟨S32x1024x512, .f32⟩
  | .hbm, ⟨20, _⟩ => ⟨S32x1024x512, .f32⟩
  | .hbm, ⟨21, _⟩ => ⟨S_, .f32⟩
  | .hbm, ⟨22, _⟩ => ⟨S32x1024x512, .f32⟩
  | .hbm, ⟨23, _⟩ => ⟨S32x1024x512, .f32⟩
  | .hbm, ⟨24, _⟩ => ⟨S32x1024x1024, .f32⟩
  | .hbm, ⟨25, _⟩ => ⟨S1x1x1024, .f32⟩
  | .hbm, ⟨26, _⟩ => ⟨S32x1024x1024, .f32⟩
  | .hbm, ⟨27, _⟩ => ⟨S32x1024x1024, .f32⟩
  | .hbm, ⟨28, _⟩ => ⟨S_, .f32⟩
  | .hbm, ⟨29, _⟩ => ⟨S32x1024x1024, .f32⟩
  | .hbm, ⟨30, _⟩ => ⟨S32x1024x1024, .f32⟩
  | .hbm, ⟨31, _⟩ => ⟨S32x1024x128, .f32⟩
  | .hbm, ⟨32, _⟩ => ⟨S1x1x128, .f32⟩
  | .hbm, ⟨33, _⟩ => ⟨S32x1024x128, .f32⟩
  | .hbm, ⟨34, _⟩ => ⟨S32x1024x128, .f32⟩
  | .hbm, ⟨35, _⟩ => ⟨S32768x128, .f32⟩
  | _, _ => ⟨S32x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  shapeCasts_S32x1024x128_S32768x128 : S32x1024x128.ShapeCasts S32768x128
  gather_S50257x512_S32x1024x1_S32x1024x512_2_0_n_n_0_2_1512_wf : GatherDims.WF S50257x512 S32x1024x1 S32x1024x512 [2] [0] [] [0] [] 2 ![1, 512]
  dot_S32x1024x512_S512x512_S32x1024x512_2_1_01_0_n_n_wf : DotDims.WF S32x1024x512 S512x512 S32x1024x512 [2] [1] [0, 1] [0] [] []
  dot_S32x1024x512_S512x1024_S32x1024x1024_2_0_01_1_n_n_wf : DotDims.WF S32x1024x512 S512x1024 S32x1024x1024 [2] [0] [0, 1] [1] [] []
  dot_S32x1024x1024_S1024x128_S32x1024x128_2_0_01_1_n_n_wf : DotDims.WF S32x1024x1024 S1024x128 S32x1024x128 [2] [0] [0, 1] [1] [] []

variable [Facts₀]

def gather_S50257x512_S32x1024x1_S32x1024x512_2_0_n_n_0_2_1512 : GatherDims S50257x512 S32x1024x1 S32x1024x512 where
  offsetDims := [2]
  collapsedSliceDims := [0]
  operandBatchingDims := []
  startIndicesBatchingDims := []
  startIndexMap := [0]
  indexVectorDim := 2
  sliceSizes := ![1, 512]
  wf := gather_S50257x512_S32x1024x1_S32x1024x512_2_0_n_n_0_2_1512_wf
def dot_S32x1024x512_S512x512_S32x1024x512_2_1_01_0_n_n : DotDims S32x1024x512 S512x512 S32x1024x512 where
  lhsContracting := [2]
  rhsContracting := [1]
  lhsNonContracting := [0, 1]
  rhsNonContracting := [0]
  lhsBatch := []
  rhsBatch := []
  wf := dot_S32x1024x512_S512x512_S32x1024x512_2_1_01_0_n_n_wf
def dot_S32x1024x512_S512x1024_S32x1024x1024_2_0_01_1_n_n : DotDims S32x1024x512 S512x1024 S32x1024x1024 where
  lhsContracting := [2]
  rhsContracting := [0]
  lhsNonContracting := [0, 1]
  rhsNonContracting := [1]
  lhsBatch := []
  rhsBatch := []
  wf := dot_S32x1024x512_S512x1024_S32x1024x1024_2_0_01_1_n_n_wf
def dot_S32x1024x1024_S1024x128_S32x1024x128_2_0_01_1_n_n : DotDims S32x1024x1024 S1024x128 S32x1024x128 where
  lhsContracting := [2]
  rhsContracting := [0]
  lhsNonContracting := [0, 1]
  rhsNonContracting := [1]
  lhsBatch := []
  rhsBatch := []
  wf := dot_S32x1024x1024_S1024x128_S32x1024x128_2_0_01_1_n_n_wf

class Facts : Prop extends Facts₀ where

variable [Facts]
-- ==== Proof.LibDenseRows.lean ====
/-
  A dense layer over the extended reals, read at an index.

  For a row-major matrix product x · W with x : [M, K] and W : [K, N] (the plain dimension numbers: the
  left operand contracted on its last axis, the right on its first), accumulated into a zero matrix, the
  entry (p, j) is the finite sum over e of x(p, e) · W(e, j). Adding a bias given as a one-row matrix
  b : [1, N] broadcast down the M rows adds b(0, j). A rectifier written as the maximum with a zero splat,
  followed by a change of float format (the identity on the extended reals), is max(v, 0) entry by entry.
  Nothing here needs the entries to be finite: the extended reals' sum of finitely many terms is defined
  whatever the terms are.
-/
import Idealize.ShloMosaic.PureOps.Ideal.Laws
import Idealize.ShloMosaic.Lib.ValueIdx
import Idealize.ShloMosaic.Lib.ValueLayout

noncomputable section

namespace Cert.LibDenseRows

open Idealize.ShloMosaic Idealize.ShloMosaic.ValueIdx

variable {M K N : ℕ} {φ₁ φ₂ : FTy}

/-- The product x · W into the zero matrix, at (p, j): the sum over the shared axis of x(p, e) · W(e, j). -/
theorem matmul_plain_zero_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (p : Fin M) (j : Fin N) :
    FloatOps.matmul D prec x W (constant (F := Ideal) ⟨2, ![M, N]⟩ .f32 0x00000000#32) (ix2 p j)
      = ∑ e : Fin K, x (ix2 p e) * W (ix2 e j) := by
  subst hD
  rw [Ideal.matmul_constant_zero_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 p j) ((contrEquiv1 (DotDims.plain M K N) K rfl rfl).symm e) = ix2 p e :=
    funext fun a => Fin.ext (by
      match a with
      | ⟨0, _⟩ => rfl
      | ⟨1, _⟩ => exact ((DotDims.plain M K N).lhsIdx_val_of_single rfl _ _).trans he)
  have er : (DotDims.plain M K N).rhsIdx (ix2 p j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => rfl)
  rw [el, er]

/-- x · W + b with the bias a one-row matrix broadcast down the rows, at (p, j). -/
theorem dense_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (p : Fin M) (j : Fin N) :
    addf (FloatOps.matmul D prec x W (constant (F := Ideal) ⟨2, ![M, N]⟩ .f32 0x00000000#32))
        (broadcastTo ⟨2, ![M, N]⟩ b hb) (ix2 p j)
      = (∑ e : Fin K, x (ix2 p e) * W (ix2 e j)) + b (ix2 (0 : Fin 1) j) := by
  rw [addf_apply, matmul_plain_zero_apply D hD, broadcastTo_1b_ab_apply]

/-- The rectifier max(v, 0) followed by a narrowing of the float format, entry by entry. -/
theorem relu_narrow_apply {s : Shape} {ψ : FTy} (v : FVec Ideal s .f32) (h : ψ.bits < (FTy.f32).bits) (i : s.Idx) :
    (truncf ψ (maximumf v (broadcast s (Scalar.ofBits (F := Ideal) .f32 0x00000000#32))) h : FVec Ideal s ψ) i
      = max (v i) (Ideal.ofBits .f32 0x00000000#32) := rfl

end Cert.LibDenseRows

end
-- ==== Proof.LibRowGather.lean ====
/-
  Rows gathered from a table, read at an index.

  What `table[ids]` lowers to for a table [R, E] and integer ids: a gather that collapses the table's row
  axis, takes whole rows (slice sizes [1, E]) and reads the row number off the ids, one id per result row.
  The entry (…, e) of the result is the table's entry (r, e), where r is the id read as a signed integer and
  clamped into [0, R − 1] (a gather clamps every start index so that its slice fits). Two layouts of the ids
  are read here: a column [M, 1] giving a result [M, E], and a grid [B, S, 1] giving a result [B, S, E].
-/
import Idealize.ShloMosaic.Lib.ValueIdx

noncomputable section

namespace Cert.LibRowGather

open Idealize.ShloMosaic Idealize.ShloMosaic.ValueIdx

variable {α : Type}

/-- The row a signed id word names in a table of R rows: the id clamped into [0, R − 1]. -/
def clampRow (R : Nat) (hR : 0 < R) {w : Nat} (t : BitVec w) : Fin R := ⟨min t.toInt.toNat (R - 1), by omega⟩

/-- The dimension numbers for a table [R, E], ids [M, 1] and a result [M, E]. -/
abbrev colDims (R E M : Nat) (wf : GatherDims.WF ⟨2, ![R, E]⟩ ⟨2, ![M, 1]⟩ ⟨2, ![M, E]⟩ [1] [0] [] [0] [] 1 ![1, E]) :
    GatherDims ⟨2, ![R, E]⟩ ⟨2, ![M, 1]⟩ ⟨2, ![M, E]⟩ where
  offsetDims := [1]
  collapsedSliceDims := [0]
  operandBatchingDims := []
  startIndicesBatchingDims := []
  startIndexMap := [0]
  indexVectorDim := 1
  sliceSizes := ![1, E]
  wf := wf

/-- Ids in a column: result entry (p, e) is the table's entry (row named by id p, e). -/
theorem gather_col_apply {R E M w : Nat} (hR : 0 < R)
    (wf : GatherDims.WF ⟨2, ![R, E]⟩ ⟨2, ![M, 1]⟩ ⟨2, ![M, E]⟩ [1] [0] [] [0] [] 1 ![1, E])
    (x : (⟨2, ![R, E]⟩ : Shape).Idx → α) (idx : IVec ⟨2, ![M, 1]⟩ w) (p : Fin M) (e : Fin E) :
    Host.gather (colDims R E M wf) x idx (ix2 p e) = x (ix2 (clampRow R hR (idx (ix2 p (0 : Fin 1)))) e) := by
  unfold Host.gather
  refine congrArg x (funext fun a => Fin.ext ?_)
  match a with
  | ⟨0, _⟩ =>
    show (colDims R E M wf).start (ix2 p e) idx 0 + (colDims R E M wf).batchCoord (ix2 p e) 0
      + (colDims R E M wf).offCoord (ix2 p e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colDims R E M wf).startIndexMap from List.mem_singleton.mpr rfl)]
    have hsi : (colDims R E M wf).siIdx (ix2 p e) ⟨List.idxOf (0 : Fin 2) (colDims R E M wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (colDims R E M wf).start (ix2 p e) idx 1 + (colDims R E M wf).batchCoord (ix2 p e) 1
      + (colDims R E M wf).offCoord (ix2 p e) 1 = e.val
    rw [GatherDims.batchCoord_eq_zero _ _ _ List.not_mem_nil]
    unfold GatherDims.start
    rw [dif_neg (show ¬ (1 : Fin 2) ∈ (colDims R E M wf).startIndexMap from
      fun h => Nat.one_ne_zero (congrArg Fin.val (List.mem_singleton.mp h)))]
    simp only [Nat.add_zero, Nat.zero_add]
    rfl

/-- The dimension numbers for a table [R, E], ids [B, S, 1] and a result [B, S, E]. -/
abbrev gridDims (R E B S : Nat)
    (wf : GatherDims.WF ⟨2, ![R, E]⟩ ⟨3, ![B, S, 1]⟩ ⟨3, ![B, S, E]⟩ [2] [0] [] [0] [] 2 ![1, E]) :
    GatherDims ⟨2, ![R, E]⟩ ⟨3, ![B, S, 1]⟩ ⟨3, ![B, S, E]⟩ where
  offsetDims := [2]
  collapsedSliceDims := [0]
  operandBatchingDims := []
  startIndicesBatchingDims := []
  startIndexMap := [0]
  indexVectorDim := 2
  sliceSizes := ![1, E]
  wf := wf

/-- Ids on a grid: result entry (b, s, e) is the table's entry (row named by id (b, s), e). -/
theorem gather_grid_apply {R E B S w : Nat} (hR : 0 < R)
    (wf : GatherDims.WF ⟨2, ![R, E]⟩ ⟨3, ![B, S, 1]⟩ ⟨3, ![B, S, E]⟩ [2] [0] [] [0] [] 2 ![1, E])
    (x : (⟨2, ![R, E]⟩ : Shape).Idx → α) (idx : IVec ⟨3, ![B, S, 1]⟩ w) (b : Fin B) (s : Fin S) (e : Fin E) :
    Host.gather (gridDims R E B S wf) x idx (ix3 b s e)
      = x (ix2 (clampRow R hR (idx (ix3 b s (0 : Fin 1)))) e) := by
  unfold Host.gather
  refine congrArg x (funext fun a => Fin.ext ?_)
  match a with
  | ⟨0, _⟩ =>
    show (gridDims R E B S wf).start (ix3 b s e) idx 0 + (gridDims R E B S wf).batchCoord (ix3 b s e) 0
      + (gridDims R E B S wf).offCoord (ix3 b s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gridDims R E B S wf).startIndexMap from List.mem_singleton.mpr rfl)]
    have hsi : (gridDims R E B S wf).siIdx (ix3 b s e) ⟨List.idxOf (0 : Fin 2) (gridDims R E B S wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show (gridDims R E B S wf).start (ix3 b s e) idx 1 + (gridDims R E B S wf).batchCoord (ix3 b s e) 1
      + (gridDims R E B S wf).offCoord (ix3 b s e) 1 = e.val
    rw [GatherDims.batchCoord_eq_zero _ _ _ List.not_mem_nil]
    unfold GatherDims.start
    rw [dif_neg (show ¬ (1 : Fin 2) ∈ (gridDims R E B S wf).startIndexMap from
      fun h => Nat.one_ne_zero (congrArg Fin.val (List.mem_singleton.mp h)))]
    simp only [Nat.add_zero, Nat.zero_add]
    rfl

end Cert.LibRowGather

end
-- ==== Proof.SlotLogits.lean ====
/-
  The slot-labelling logits, as one function of the inputs.

  For each of the 32·1024 tokens the model looks up a 512-entry embedding row x, then applies three dense
  layers, the first two rectified:
      h(c) = max(Σ_e x(e)·Wc(e,c) + bc(c), 0)          c < 512
      z(k) = max(Σ_c h(c)·W1(c,k) + b1(k), 0)          k < 1024
      out(l) =   Σ_k z(k)·W2(k,l) + b2(l)              l < 128
  over the extended reals (each sum a finite sum, so it is defined at every input; "0" is the value of the
  f32 word of +0.0, which is never evaluated here: both programs use the same word). `rowLogits` is that
  function of one row and the weights. `tokenLogits` states it of the seven arrays the matrix-product stage
  is handed (the gathered rows [32768, 512], the first weight already laid out [in, out], the biases as
  one-row matrices); `logits` states it of the model's eight arguments: token (b, s) is row b·1024 + s, its
  embedding row is the table's row named by the token id (a negative id counted from the end, then clamped
  into the table), and the first layer's weight is given [out, in], so Wc(e, c) = conv_w(c, e).
-/
import Idealize.ShloMosaic.PureOps.Ideal
import Idealize.ShloMosaic.Lib.ValueIdx
import proofs.«141196_j5815385719211_2_alg».proof.Proof.LibRowGather

noncomputable section

namespace Cert.SlotLogits

open Idealize.ShloMosaic Idealize.ShloMosaic.ValueIdx

/-- The value of the f32 word of +0.0 (the rectifier's floor). -/
abbrev floor0 : EReal := Ideal.ofBits .f32 0x00000000#32

/-- One dense layer at output column j: Σ_e x(e)·W(e, j) + b(j). -/
def affine {k n : ℕ} (x : Fin k → EReal) (W : Fin k → Fin n → EReal) (b : Fin n → EReal) (j : Fin n) : EReal :=
  (∑ e : Fin k, x e * W e j) + b j

/-- The three layers applied to one embedding row. -/
def rowLogits (x : Fin 512 → EReal) (Wc : Fin 512 → Fin 512 → EReal) (bc : Fin 512 → EReal)
    (W1 : Fin 512 → Fin 1024 → EReal) (b1 : Fin 1024 → EReal) (W2 : Fin 1024 → Fin 128 → EReal)
    (b2 : Fin 128 → EReal) (l : Fin 128) : EReal :=
  affine (fun k => max (affine (fun c => max (affine x Wc bc c) floor0) W1 b1 k) floor0) W2 b2 l

/-- The matrix-product stage as a function of its seven operand arrays, at row p and label l. -/
def tokenLogitsAt (X : FVec Ideal ⟨2, ![32768, 512]⟩ .bf16) (Wc : FVec Ideal ⟨2, ![512, 512]⟩ .bf16)
    (bc : FVec Ideal ⟨2, ![1, 512]⟩ .f32) (W1 : FVec Ideal ⟨2, ![512, 1024]⟩ .bf16)
    (b1 : FVec Ideal ⟨2, ![1, 1024]⟩ .f32) (W2 : FVec Ideal ⟨2, ![1024, 128]⟩ .bf16)
    (b2 : FVec Ideal ⟨2, ![1, 128]⟩ .f32) (p : Fin 32768) (l : Fin 128) : EReal :=
  rowLogits (fun e => X (ix2 p e)) (fun e c => Wc (ix2 e c)) (fun c => bc (ix2 (0 : Fin 1) c))
    (fun c k => W1 (ix2 c k)) (fun k => b1 (ix2 (0 : Fin 1) k)) (fun k j => W2 (ix2 k j))
    (fun j => b2 (ix2 (0 : Fin 1) j)) l

/-- The same as an array [32768, 128]. -/
def tokenLogits (X : FVec Ideal ⟨2, ![32768, 512]⟩ .bf16) (Wc : FVec Ideal ⟨2, ![512, 512]⟩ .bf16)
    (bc : FVec Ideal ⟨2, ![1, 512]⟩ .f32) (W1 : FVec Ideal ⟨2, ![512, 1024]⟩ .bf16)
    (b1 : FVec Ideal ⟨2, ![1, 1024]⟩ .f32) (W2 : FVec Ideal ⟨2, ![1024, 128]⟩ .bf16)
    (b2 : FVec Ideal ⟨2, ![1, 128]⟩ .f32) : FVec Ideal ⟨2, ![32768, 128]⟩ .f32 :=
  fun i => tokenLogitsAt X Wc bc W1 b1 W2 b2 ⟨(i 0).val, idx2_lt0 i⟩ ⟨(i 1).val, idx2_lt1 i⟩

theorem tokenLogits_apply (X : FVec Ideal ⟨2, ![32768, 512]⟩ .bf16) (Wc : FVec Ideal ⟨2, ![512, 512]⟩ .bf16)
    (bc : FVec Ideal ⟨2, ![1, 512]⟩ .f32) (W1 : FVec Ideal ⟨2, ![512, 1024]⟩ .bf16)
    (b1 : FVec Ideal ⟨2, ![1, 1024]⟩ .f32) (W2 : FVec Ideal ⟨2, ![1024, 128]⟩ .bf16)
    (b2 : FVec Ideal ⟨2, ![1, 128]⟩ .f32) (p : Fin 32768) (l : Fin 128) :
    tokenLogits X Wc bc W1 b1 W2 b2 (ix2 p l) = tokenLogitsAt X Wc bc W1 b1 W2 b2 p l := rfl

/-- The table row a token id names: a negative id has the table's length added, and the result is clamped
    into the table (read as a signed integer). -/
def tokenRow (t : BitVec 32) : Fin 50257 :=
  LibRowGather.clampRow 50257 (by decide) (Scalar.select (IntOp.cmpi .slt t 0#32) (IntOp.addi t 50257#32) t)

/-- The logits of token (b, s) at label l, of the model's eight arguments. -/
def logitsAt (tok : IVec ⟨2, ![32, 1024]⟩ 32) (emb : FVec Ideal ⟨2, ![50257, 512]⟩ .f32)
    (cw : FVec Ideal ⟨2, ![512, 512]⟩ .f32) (cb : FVec Ideal ⟨1, ![512]⟩ .f32)
    (w1 : FVec Ideal ⟨2, ![512, 1024]⟩ .f32) (b1 : FVec Ideal ⟨1, ![1024]⟩ .f32)
    (w2 : FVec Ideal ⟨2, ![1024, 128]⟩ .f32) (b2 : FVec Ideal ⟨1, ![128]⟩ .f32)
    (b : Fin 32) (s : Fin 1024) (l : Fin 128) : EReal :=
  rowLogits (fun e => emb (ix2 (tokenRow (tok (ix2 b s))) e)) (fun e c => cw (ix2 c e)) (fun c => cb (ix1 c))
    (fun c k => w1 (ix2 c k)) (fun k => b1 (ix1 k)) (fun k j => w2 (ix2 k j)) (fun j => b2 (ix1 j)) l

/-- The result array [32768, 128]: row p is token (p / 1024, p % 1024). -/
def logits (tok : IVec ⟨2, ![32, 1024]⟩ 32) (emb : FVec Ideal ⟨2, ![50257, 512]⟩ .f32)
    (cw : FVec Ideal ⟨2, ![512, 512]⟩ .f32) (cb : FVec Ideal ⟨1, ![512]⟩ .f32)
    (w1 : FVec Ideal ⟨2, ![512, 1024]⟩ .f32) (b1 : FVec Ideal ⟨1, ![1024]⟩ .f32)
    (w2 : FVec Ideal ⟨2, ![1024, 128]⟩ .f32) (b2 : FVec Ideal ⟨1, ![128]⟩ .f32) :
    FVec Ideal ⟨2, ![32768, 128]⟩ .f32 :=
  fun i => logitsAt tok emb cw cb w1 b1 w2 b2
    ⟨(i 0).val / 1024, by have := idx2_lt0 i; omega⟩ ⟨(i 0).val % 1024, Nat.mod_lt _ (by decide)⟩
    ⟨(i 1).val, idx2_lt1 i⟩

theorem logits_apply (tok : IVec ⟨2, ![32, 1024]⟩ 32) (emb : FVec Ideal ⟨2, ![50257, 512]⟩ .f32)
    (cw : FVec Ideal ⟨2, ![512, 512]⟩ .f32) (cb : FVec Ideal ⟨1, ![512]⟩ .f32)
    (w1 : FVec Ideal ⟨2, ![512, 1024]⟩ .f32) (b1 : FVec Ideal ⟨1, ![1024]⟩ .f32)
    (w2 : FVec Ideal ⟨2, ![1024, 128]⟩ .f32) (b2 : FVec Ideal ⟨1, ![128]⟩ .f32) (p : Fin 32768) (l : Fin 128) :
    logits tok emb cw cb w1 b1 w2 b2 (ix2 p l)
      = logitsAt tok emb cw cb w1 b1 w2 b2 ⟨p.val / 1024, by omega⟩ ⟨p.val % 1024, Nat.mod_lt _ (by decide)⟩ l := rfl

/-- The stage's function of its operand arrays is the model's function of its arguments, once the operand
    arrays are what the preparation makes of the arguments: the gathered rows, the first weight transposed,
    the biases laid as one-row matrices, the other two weights as given. -/
theorem tokenLogits_eq_logits (tok : IVec ⟨2, ![32, 1024]⟩ 32) (emb : FVec Ideal ⟨2, ![50257, 512]⟩ .f32)
    (cw : FVec Ideal ⟨2, ![512, 512]⟩ .f32) (cb : FVec Ideal ⟨1, ![512]⟩ .f32)
    (w1 : FVec Ideal ⟨2, ![512, 1024]⟩ .f32) (b1 : FVec Ideal ⟨1, ![1024]⟩ .f32)
    (w2 : FVec Ideal ⟨2, ![1024, 128]⟩ .f32) (b2 : FVec Ideal ⟨1, ![128]⟩ .f32)
    (X : FVec Ideal ⟨2, ![32768, 512]⟩ .bf16) (Wc : FVec Ideal ⟨2, ![512, 512]⟩ .bf16)
    (bc : FVec Ideal ⟨2, ![1, 512]⟩ .f32) (W1 : FVec Ideal ⟨2, ![512, 1024]⟩ .bf16)
    (B1 : FVec Ideal ⟨2, ![1, 1024]⟩ .f32) (W2 : FVec Ideal ⟨2, ![1024, 128]⟩ .bf16)
    (B2 : FVec Ideal ⟨2, ![1, 128]⟩ .f32)
    (hX : ∀ (p : Fin 32768) (e : Fin 512), X (ix2 p e)
      = emb (ix2 (tokenRow (tok (ix2 (⟨p.val / 1024, by omega⟩ : Fin 32) (⟨p.val % 1024, Nat.mod_lt _ (by decide)⟩ : Fin 1024)))) e))
    (hWc : ∀ (e c : Fin 512), Wc (ix2 e c) = cw (ix2 c e))
    (hbc : ∀ c : Fin 512, bc (ix2 (0 : Fin 1) c) = cb (ix1 c))
    (hW1 : ∀ (c : Fin 512) (k : Fin 1024), W1 (ix2 c k) = w1 (ix2 c k))
    (hB1 : ∀ k : Fin 1024, B1 (ix2 (0 : Fin 1) k) = b1 (ix1 k))
    (hW2 : ∀ (k : Fin 1024) (j : Fin 128), W2 (ix2 k j) = w2 (ix2 k j))
    (hB2 : ∀ j : Fin 128, B2 (ix2 (0 : Fin 1) j) = b2 (ix1 j)) :
    tokenLogits X Wc bc W1 B1 W2 B2 = logits tok emb cw cb w1 b1 w2 b2 := by
  funext i
  obtain ⟨p, l, rfl⟩ : ∃ (p : Fin 32768) (l : Fin 128), i = ix2 p l := ⟨i 0, i 1, eq_ix2 i⟩
  rw [tokenLogits_apply, logits_apply]
  unfold tokenLogitsAt logitsAt
  simp only [hX, hWc, hbc, hW1, hB1, hW2, hB2]

end Cert.SlotLogits

end
-- ==== Proof.KernelBlock.lean ====
/-
  What the kernel's body computes from its blocks, entry by entry.

  At one grid point the body holds 2048 gathered rows x0 : [2048, 512], the three weights whole
  (x1 : [512, 512], x3 : [512, 1024], x5 : [1024, 128]) and the three biases as one-row matrices
  (x2, x4, x6). Its one store writes three matrix products, each into a zero accumulator and each followed
  by the bias broadcast down the rows, the first two also by the rectifier and a narrowing of the float
  format. Entry (p, l) of the stored block is therefore the three-layer function `rowLogits` of row p of x0:
  each product is a finite sum over its shared axis, the narrowing is the identity on the extended reals,
  and nothing else is used.
-/
import proofs.«141196_j5815385719211_2_alg».proof.Proof.Gen.KernelIdeal.Skeleton
import proofs.«141196_j5815385719211_2_alg».proof.Proof.LibDenseRows
import proofs.«141196_j5815385719211_2_alg».proof.Proof.SlotLogits

noncomputable section

namespace Cert.KernelIdeal.Block

open Cert.KernelIdeal Cert.KernelIdeal.Gen Idealize.ShloMosaic Idealize.ShloMosaic.ValueIdx Cert.SlotLogits

/-- The stored block at (p, l): the three layers applied to row p of the gathered rows. -/
theorem payload_apply (x0 : FVec Ideal S2048x512 .bf16) (x1 : FVec Ideal S512x512 .bf16) (x2 : FVec Ideal S1x512 .f32)
    (x3 : FVec Ideal S512x1024 .bf16) (x4 : FVec Ideal S1x1024 .f32) (x5 : FVec Ideal S1024x128 .bf16)
    (x6 : FVec Ideal S1x128 .f32) (p : Fin 2048) (l : Fin 128) :
    k0_pay1 (F := Ideal) x0 x1 x2 x3 x4 x5 x6 (ix2 p l)
      = rowLogits (fun e => x0 (ix2 p e)) (fun e c => x1 (ix2 e c)) (fun c => x2 (ix2 (0 : Fin 1) c))
          (fun c k => x3 (ix2 c k)) (fun k => x4 (ix2 (0 : Fin 1) k)) (fun k j => x5 (ix2 k j))
          (fun j => x6 (ix2 (0 : Fin 1) j)) l := by
  unfold k0_pay1
  simp only [shapeCast_self]
  unfold rowLogits affine
  -- the last layer: a sum over the 1024 hidden units plus the bias
  refine (LibDenseRows.dense_apply dot_S2048x1024_S1024x128_S2048x128_1_0_0_1_n_n rfl none _ _ _ _ p l).trans ?_
  refine congrArg (· + _) (Finset.sum_congr rfl fun k _ => congrArg (· * _) ?_)
  -- a hidden unit: the rectified second layer
  refine (LibDenseRows.relu_narrow_apply (ψ := .bf16) _ _ (ix2 p k)).trans (congrArg (max · _) ?_)
  refine (LibDenseRows.dense_apply dot_S2048x512_S512x1024_S2048x1024_1_0_0_1_n_n rfl none _ _ _ _ p k).trans ?_
  refine congrArg (· + _) (Finset.sum_congr rfl fun c _ => congrArg (· * _) ?_)
  -- a first-layer unit: the rectified first layer of the row
  refine (LibDenseRows.relu_narrow_apply (ψ := .bf16) _ _ (ix2 p c)).trans (congrArg (max · _) ?_)
  exact LibDenseRows.dense_apply dot_S2048x512_S512x512_S2048x512_1_0_0_1_n_n rfl none _ _ _ _ p c

end Cert.KernelIdeal.Block

end
-- ==== Proof.KernelOperands.lean ====
/-
  What the matrix-product stage is handed: the seven operand arrays as functions of the arguments.

  Before the stage runs, the program flattens the token ids to one axis, adds the table's length to the
  negative ones, gathers one embedding row per id, narrows the rows and the three weights to a shorter float
  format (the identity on the extended reals), transposes the first weight, and lays each bias out as a
  one-row matrix. Entry by entry: gathered row p is the table's row named by token (p / 1024, p % 1024); the
  first weight at (e, j) is conv_w(j, e); the other two weights are as given; each bias row at (0, j) is the
  bias at j.
-/
import proofs.«141196_j5815385719211_2_alg».proof.Proof.Gen.KernelIdeal.Frame
import Idealize.ShloMosaic.Lib.StableHlo.Run
import Idealize.ShloMosaic.Lib.Pipeline.Value
import Idealize.ShloMosaic.Lib.ValueLayout
import proofs.«141196_j5815385719211_2_alg».proof.Proof.LibRowGather
import proofs.«141196_j5815385719211_2_alg».proof.Proof.SlotLogits

noncomputable section

namespace Cert.KernelIdeal.Operands

open Cert.KernelIdeal Cert.KernelIdeal.Gen Idealize.ShloMosaic Idealize.ShloMosaic.TcCoe Idealize.SL.Sem
  Idealize.ShloMosaic.StableHlo Idealize.ShloMosaic.ValueIdx Cert.SlotLogits

variable (m : (ℓ : Loc nD τ sig) → Buf (Elt Ideal) ℓ) (c : Dev nD)

/-- The flattened token ids at position p: token (p / 1024, p % 1024). -/
theorem flat_ids_apply (tok : IVec S32x1024 32) (p : Fin 32768) :
    shapeCast S32768 tok shapeCasts_S32x1024_S32768 (ix1 p)
      = tok (ix2 (⟨p.val / 1024, by omega⟩ : Fin 32) (⟨p.val % 1024, Nat.mod_lt _ (by decide)⟩ : Fin 1024)) := by
  refine shapeCast_apply tok shapeCasts_S32x1024_S32768 _ _ ?_
  rw [Shape.rowMajor_val_two, Shape.rowMajor_val_one]
  have hp := p.isLt
  show p.val / 1024 * 1024 + p.val % 1024 = p.val
  omega

/-- The gathered rows, narrowed: row p, entry e, is the table's row named by token (p / 1024, p % 1024). -/
theorem rows_apply (p : Fin 32768) (e : Fin 512) :
    (V m c main_v8 : S32768x512.Idx → EReal) (ix2 p e)
      = (m ((c : Thread nD τ).loc main_arg1) : S50257x512.Idx → EReal)
          (ix2 (tokenRow ((m ((c : Thread nD τ).loc main_arg0) : S32x1024.Idx → BitVec 32)
            (ix2 (⟨p.val / 1024, by omega⟩ : Fin 32) (⟨p.val % 1024, Nat.mod_lt _ (by decide)⟩ : Fin 1024)))) e) := by
  have hV : (V m c main_v8 : S32768x512.Idx → EReal)
      = truncf (F := Ideal) .bf16 (Host.gather gather_S50257x512_S32768x1_S32768x512_1_0_n_n_0_1_1512
          (m ((c : Thread nD τ).loc main_arg1))
          (broadcastInDim S32768x1 ![0] bcast_S32768_S32768x1_0
            (select (cmpi .slt (shapeCast S32768 (m ((c : Thread nD τ).loc main_arg0)) shapeCasts_S32x1024_S32768)
                (broadcastInDim S32768 ![] bcast_S_S32768 (constantI S_ 32 0#32)))
              (addi (shapeCast S32768 (m ((c : Thread nD τ).loc main_arg0)) shapeCasts_S32x1024_S32768)
                (broadcastInDim S32768 ![] bcast_S_S32768 (constantI S_ 32 50257#32)))
              (shapeCast S32768 (m ((c : Thread nD τ).loc main_arg0)) shapeCasts_S32x1024_S32768))))
          bitsLt_bf16_f32 := by
    dsimp only [Gen.V, Gen.hostOps0]; after_results <;> rfl
  rw [hV]
  refine (LibRowGather.gather_col_apply (R := 50257) (E := 512) (M := 32768) (by decide)
    gather_S50257x512_S32768x1_S32768x512_1_0_n_n_0_1_1512.wf (m ((c : Thread nD τ).loc main_arg1)) _ p e).trans ?_
  refine congrArg (fun r => (m ((c : Thread nD τ).loc main_arg1) : S50257x512.Idx → EReal) (ix2 r e)) ?_
  unfold tokenRow
  refine congrArg (LibRowGather.clampRow 50257 (by decide)) ?_
  refine (broadcastInDim_apply _ bcast_S32768_S32768x1_0 _ (ix2 p (0 : Fin 1)) (ix1 p) (fun a => by
    match a with
    | ⟨0, _⟩ => show p.val = if (32768 : Nat) = 1 then 0 else p.val; rw [if_neg (by decide)])).trans ?_
  rw [← flat_ids_apply (m ((c : Thread nD τ).loc main_arg0)) p]
  rfl

/-- The first weight, transposed and narrowed: at (e, j) it is conv_w(j, e). -/
theorem convT_apply (e j : Fin 512) :
    (V m c main_v10 : S512x512.Idx → EReal) (ix2 e j)
      = (m ((c : Thread nD τ).loc main_arg2) : S512x512.Idx → EReal) (ix2 j e) := by
  have hV : (V m c main_v10 : S512x512.Idx → EReal)
      = truncf (F := Ideal) .bf16 (transpose S512x512 [1, 0] (m ((c : Thread nD τ).loc main_arg2))
          transposes_S512x512_S512x512_1_0) bitsLt_bf16_f32 := by
    dsimp only [Gen.V, Gen.hostOps0]; after_results <;> rfl
  rw [hV]
  exact transpose_ix2_apply _ transposes_S512x512_S512x512_1_0 e j

/-- The second weight, narrowed: as given. -/
theorem w1_eq : (V m c main_v11 : S512x1024.Idx → EReal) = m ((c : Thread nD τ).loc main_arg4) := by
  dsimp only [Gen.V, Gen.hostOps0]; after_results <;> rfl

/-- The third weight, narrowed: as given. -/
theorem w2_eq : (V m c main_v12 : S1024x128.Idx → EReal) = m ((c : Thread nD τ).loc main_arg6) := by
  dsimp only [Gen.V, Gen.hostOps0]; after_results <;> rfl

/-- The first bias as a one-row matrix. -/
theorem convb_apply (j : Fin 512) :
    (V m c main_v13 : S1x512.Idx → EReal) (ix2 (0 : Fin 1) j)
      = (m ((c : Thread nD τ).loc main_arg3) : S512.Idx → EReal) (ix1 j) := by
  have hV : (V m c main_v13 : S1x512.Idx → EReal)
      = shapeCast S1x512 (m ((c : Thread nD τ).loc main_arg3)) shapeCasts_S512_S1x512 := by
    dsimp only [Gen.V, Gen.hostOps0]; after_results <;> rfl
  rw [hV]
  exact shapeCast_a_1a_apply _ shapeCasts_S512_S1x512 0 j

/-- The second bias as a one-row matrix. -/
theorem b1_apply (j : Fin 1024) :
    (V m c main_v14 : S1x1024.Idx → EReal) (ix2 (0 : Fin 1) j)
      = (m ((c : Thread nD τ).loc main_arg5) : S1024.Idx → EReal) (ix1 j) := by
  have hV : (V m c main_v14 : S1x1024.Idx → EReal)
      = shapeCast S1x1024 (m ((c : Thread nD τ).loc main_arg5)) shapeCasts_S1024_S1x1024 := by
    dsimp only [Gen.V, Gen.hostOps0]; after_results <;> rfl
  rw [hV]
  exact shapeCast_a_1a_apply _ shapeCasts_S1024_S1x1024 0 j

/-- The third bias as a one-row matrix. -/
theorem b2_apply (j : Fin 128) :
    (V m c main_v15 : S1x128.Idx → EReal) (ix2 (0 : Fin 1) j)
      = (m ((c : Thread nD τ).loc main_arg7) : S128.Idx → EReal) (ix1 j) := by
  have hV : (V m c main_v15 : S1x128.Idx → EReal)
      = shapeCast S1x128 (m ((c : Thread nD τ).loc main_arg7)) shapeCasts_S128_S1x128 := by
    dsimp only [Gen.V, Gen.hostOps0]; after_results <;> rfl
  rw [hV]
  exact shapeCast_a_1a_apply _ shapeCasts_S128_S1x128 0 j

/-- So the stage's function of the arrays it is handed is the logits of the arguments. -/
theorem tokenLogits_operands :
    tokenLogits (V m c main_v8) (V m c main_v10) (V m c main_v13) (V m c main_v11) (V m c main_v14)
        (V m c main_v12) (V m c main_v15)
      = logits (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) :=
  tokenLogits_eq_logits _ _ _ _ _ _ _ _ _ _ _ _ _ _ _ (rows_apply m c) (convT_apply m c) (convb_apply m c)
    (fun a k => congrFun (w1_eq m c) (ix2 a k)) (b1_apply m c) (fun k j => congrFun (w2_eq m c) (ix2 k j))
    (b2_apply m c)

end Cert.KernelIdeal.Operands

end
-- ==== Proof.KernelArray.lean ====
/-
  From the blocks the kernel writes to the whole result array.

  The stage runs at 16 grid points. At point t it reads rows [2048·t, 2048·t + 2048) of the gathered rows,
  the weights and biases whole, and writes rows [2048·t, 2048·t + 2048) of the result [32768, 128]. What it
  writes at (p, l) of its block is the three-layer function of row p of its rows block, that is the stage's
  function `tokenLogits` of the seven operand arrays at row 2048·t + p. The 16 row blocks tile the result
  (row r lies in block r / 2048), so after the run the result array is `tokenLogits` of the operand arrays,
  which the preparation makes the logits of the arguments.
-/
import proofs.«141196_j5815385719211_2_alg».proof.Proof.Gen.KernelIdeal.Value
import proofs.«141196_j5815385719211_2_alg».proof.Proof.KernelBlock
import proofs.«141196_j5815385719211_2_alg».proof.Proof.KernelOperands

noncomputable section

namespace Cert.KernelIdeal.Array

open Cert.KernelIdeal Cert.KernelIdeal.Gen Idealize.ShloMosaic Idealize.ShloMosaic.TcCoe Idealize.SL.Sem
  Idealize.ShloMosaic.ValueIdx Cert.SlotLogits
open Idealize.ShloMosaic.Pipeline (Dat)

/-- The block a point writes, at an entry, against the stage's function of whole arrays: when the rows block
    is rows 2048·t … of X and the other six blocks are the whole arrays, entry j of the block is the stage's
    function at the array index i with the same label and row 2048·t + (row of j). -/
theorem block_apply (X : FVec Ideal S32768x512 .bf16) (Wc : FVec Ideal S512x512 .bf16) (bc : FVec Ideal S1x512 .f32)
    (W1 : FVec Ideal S512x1024 .bf16) (B1 : FVec Ideal S1x1024 .f32) (W2 : FVec Ideal S1024x128 .bf16)
    (B2 : FVec Ideal S1x128 .f32) (x0 : FVec Ideal S2048x512 .bf16) (t : ℕ) (ht : t < 16)
    (h0 : ∀ (p : Fin 2048) (e : Fin 512), x0 (ix2 p e) = X (ix2 (⟨t * 2048 + p.val, by omega⟩ : Fin 32768) e))
    (j : S2048x128.Idx) (i : S32768x128.Idx) (hi0 : (i 0).val = t * 2048 + (j 0).val) (hi1 : (i 1).val = (j 1).val) :
    k0_pay1 (F := Ideal) x0 Wc bc W1 B1 W2 B2 j = tokenLogits X Wc bc W1 B1 W2 B2 i := by
  obtain ⟨p, l, rfl⟩ : ∃ (p : Fin 2048) (l : Fin 128), j = ix2 p l := ⟨j 0, j 1, eq_ix2 j⟩
  have hb : t * 2048 + p.val < 32768 := by have := p.isLt; omega
  obtain ⟨q, l', rfl⟩ : ∃ (q : Fin 32768) (l' : Fin 128), i = ix2 q l' := ⟨i 0, i 1, eq_ix2 i⟩
  obtain rfl : q = ⟨t * 2048 + p.val, hb⟩ := Fin.ext hi0
  obtain rfl : l' = l := Fin.ext hi1
  rw [Block.payload_apply, tokenLogits_apply]
  unfold tokenLogitsAt
  simp only [h0]

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 16 points: the rows window and the result window are at block
    (t, 0), the six whole-array windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A window whose block is the whole array, at block (0, 0), reads the array itself. -/
theorem whole1 (c : Dev nD) (t : Fin cfg0.N) : iblk m c 1 t = V m c main_v10 := by
  obtain ⟨-, -, e0, e1, -⟩ := idx_facts t
  funext y
  show V m c main_v10 (((cfg0.win 1).blk t).view.emb y) = V m c main_v10 y
  refine congrArg (V m c main_v10) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

theorem whole2 (c : Dev nD) (t : Fin cfg0.N) : iblk m c 2 t = V m c main_v13 := by
  obtain ⟨-, -, -, -, e0, e1, -⟩ := idx_facts t
  funext y
  show V m c main_v13 (((cfg0.win 2).blk t).view.emb y) = V m c main_v13 y
  refine congrArg (V m c main_v13) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem whole3 (c : Dev nD) (t : Fin cfg0.N) : iblk m c 3 t = V m c main_v11 := by
  obtain ⟨-, -, -, -, -, -, e0, e1, -⟩ := idx_facts t
  funext y
  show V m c main_v11 (((cfg0.win 3).blk t).view.emb y) = V m c main_v11 y
  refine congrArg (V m c main_v11) (funext fun a => Fin.ext ?_)
  match a with
  | ⟨0, _⟩ => show win0_3.index t (0 : Fin 2) * 512 + 1 * (y 0).val = (y 0).val; omega
  | ⟨1, _⟩ => show win0_3.index t (1 : Fin 2) * 1024 + 1 * (y 1).val = (y 1).val; omega

theorem whole4 (c : Dev nD) (t : Fin cfg0.N) : iblk m c 4 t = V m c main_v14 := by
  obtain ⟨-, -, -, -, -, -, -, -, e0, e1, -⟩ := idx_facts t
  funext y
  show V m c main_v14 (((cfg0.win 4).blk t).view.emb y) = V m c main_v14 y
  refine congrArg (V m c main_v14) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem whole5 (c : Dev nD) (t : Fin cfg0.N) : iblk m c 5 t = V m c main_v12 := by
  obtain ⟨-, -, -, -, -, -, -, -, -, -, e0, e1, -⟩ := idx_facts t
  funext y
  show V m c main_v12 (((cfg0.win 5).blk t).view.emb y) = V m c main_v12 y
  refine congrArg (V m c main_v12) (funext fun a => Fin.ext ?_)
  match a with
  | ⟨0, _⟩ => show win0_5.index t (0 : Fin 2) * 1024 + 1 * (y 0).val = (y 0).val; omega
  | ⟨1, _⟩ => show win0_5.index t (1 : Fin 2) * 128 + 1 * (y 1).val = (y 1).val; omega

theorem whole6 (c : Dev nD) (t : Fin cfg0.N) : iblk m c 6 t = V m c main_v15 := by
  obtain ⟨-, -, -, -, -, -, -, -, -, -, -, -, e0, e1, -⟩ := idx_facts t
  funext y
  show V m c main_v15 (((cfg0.win 6).blk t).view.emb y) = V m c main_v15 y
  refine congrArg (V m c main_v15) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The rows window's block at point t is rows 2048·t … of the gathered rows. -/
theorem rows_block (c : Dev nD) (t : Fin cfg0.N) (ht : t.val < 16) (p : Fin 2048) (e : Fin 512) :
    iblk m c 0 t (ix2 p e) = V m c main_v8 (ix2 (⟨t.val * 2048 + p.val, by omega⟩ : Fin 32768) e) := by
  obtain ⟨e0, e1, -⟩ := idx_facts t
  show V m c main_v8 (((cfg0.win 0).blk t).view.emb (ix2 p e)) = _
  refine congrArg (V m c main_v8) (funext fun a => Fin.ext ?_)
  match a with
  | ⟨0, _⟩ => show win0_0.index t (0 : Fin 2) * 2048 + 1 * p.val = t.val * 2048 + p.val; omega
  | ⟨1, _⟩ => show win0_0.index t (1 : Fin 2) * 512 + 1 * e.val = e.val; omega

/-- What point t writes back is block t of the stage's function of the operand arrays. -/
theorem flushed_eq (c : Dev nD) (t : Fin cfg0.N) :
    (dats m 0 c).flushed 7 t = ((cfg0.win 7).blk t).view.read (Elt Ideal)
      (tokenLogits (V m c main_v8) (V m c main_v10) (V m c main_v13) (V m c main_v11) (V m c main_v14)
        (V m c main_v12) (V m c main_v15)) := by
  have ht : t.val < 16 := by have h := t.isLt; have hN : grid0.N = 16 := N_0; exact hN ▸ h
  rw [Value.flushed7]
  unfold out0_7
  rw [View.canon_unit_zero hz]
  simp only [View.ld_unit_zero (S := S2048x512) hz, View.ld_unit_zero (S := S512x512) hz,
    View.ld_unit_zero (S := S1x512) hz, View.ld_unit_zero (S := S512x1024) hz, View.ld_unit_zero (S := S1x1024) hz,
    View.ld_unit_zero (S := S1024x128) hz, View.ld_unit_zero (S := S1x128) hz]
  rw [whole1, whole2, whole3, whole4, whole5, whole6]
  obtain ⟨-, -, -, -, -, -, -, -, -, -, -, -, -, -, e0, e1⟩ := idx_facts t
  funext j
  show k0_pay1 (F := Ideal) (iblk m c 0 t) (V m c main_v10) (V m c main_v13) (V m c main_v11) (V m c main_v14)
      (V m c main_v12) (V m c main_v15) j
    = tokenLogits (V m c main_v8) (V m c main_v10) (V m c main_v13) (V m c main_v11) (V m c main_v14)
        (V m c main_v12) (V m c main_v15) (((cfg0.win 7).blk t).view.emb j)
  refine block_apply (V m c main_v8) (V m c main_v10) (V m c main_v13) (V m c main_v11) (V m c main_v14)
    (V m c main_v12) (V m c main_v15) (iblk m c 0 t) t.val ht (rows_block m c t ht) j _ ?_ ?_
  · show win0_7.index t (0 : Fin 2) * 2048 + 1 * (j 0).val = t.val * 2048 + (j 0).val; omega
  · show win0_7.index t (1 : Fin 2) * 128 + 1 * (j 1).val = (j 1).val; omega

/-- An index of the result is in point t's block iff each coordinate is in the block's range on its axis. -/
theorem mem_blk (t : Fin cfg0.N) (i : S32768x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v16).slice (win0_7.rect t)).set ↔ _
  rw [View.set_slice_whole, Rect.mem_set_unit]
  exact Iff.rfl

/-- Every index of the result is in some point's block: row r is in block r / 2048. -/
theorem cover (i : S32768x128.Idx) :
    ∃ t : Fin cfg0.N, (cfg0.win 7).flush t = true ∧ i ∈ ((cfg0.win 7).blk t).view.set := by
  have hi0 : (i 0).val < 32768 := idx2_lt0 i
  have hi1 : (i 1).val < 128 := idx2_lt1 i
  have hN : grid0.N = 16 := N_0
  have hlt : (i 0).val / 2048 < grid0.N := by rw [hN]; omega
  obtain ⟨t, ht⟩ : ∃ t : Fin cfg0.N, t.val = (i 0).val / 2048 := ⟨⟨(i 0).val / 2048, hlt⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 128 ≤ (i 1).val ∧ (i 1).val < win0_7.index t (1 : Fin 2) * 128 + 128
    omega

/-- The result array after the run: the stage's function of the operand arrays. -/
theorem final (c : Dev nD) :
    (dats m 0 c).arrAt 7 cfg0.N = tokenLogits (V m c main_v8) (V m c main_v10) (V m c main_v13) (V m c main_v11)
      (V m c main_v14) (V m c main_v12) (V m c main_v15) :=
  (dats m 0 c).arrAt_eq_of_cover 7 _ (fun t _ => flushed_eq m c t) cover

/-- The kernel program's run: the result buffer ends at the logits of the arguments, the arguments unchanged. -/
theorem run : θ_run defs (onTc (τ := τ) (main (F := Ideal))) ⟨m, fun _ => 0, ρ⟩ fun r => ∀ c : Dev nD,
      r.2.mem ((c : Thread nD τ).loc main_v16)
        = logits (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
      ⟨((h c).1.trans (final m c)).trans (Operands.tokenLogits_operands m c), (h c).2⟩)
    (Value.run_blocks m ρ)

end Cert.KernelIdeal.Array

end
-- ==== Proof.RefLogits.lean ====
/-
  The reference's result, entry by entry, is the slot-labelling logits.

  The reference gathers an embedding row per token on the [32, 1024] grid, applies the three dense layers as
  contractions over the last axis of a [32, 1024, ·] array (the first against the weight's second axis,
  which is the transposition the specification spells as conv_w(c, e)), adds each bias broadcast along the
  two token axes, rectifies twice, and finally lays the [32, 1024, 128] result out as [32768, 128]: row p of
  the result is token (p / 1024, p % 1024). Read one operation at a time through the generated stage
  lemmas, entry (p, l) is `logitsAt` of that token. The gather is read by the row-gather lemma: the id of
  token (b, s), with the table's length added when negative, clamped into the table.
-/
import proofs.«141196_j5815385719211_2_alg».proof.Proof.Gen.ReferenceIdeal.Read
import proofs.«141196_j5815385719211_2_alg».proof.Proof.LibRowGather
import proofs.«141196_j5815385719211_2_alg».proof.Proof.SlotLogits

noncomputable section

namespace Cert.ReferenceIdeal.RefLogits

open Cert.ReferenceIdeal Cert.ReferenceIdeal.Gen Cert.ReferenceIdeal.Read Idealize.ShloMosaic
  Idealize.ShloMosaic.ValueIdx Cert.SlotLogits

variable (x0 : (⟨S32x1024, .i32⟩ : BufTy).Contents (Elt Ideal)) (x1 : (⟨S50257x512, .f32⟩ : BufTy).Contents (Elt Ideal))
  (x2 : (⟨S512x512, .f32⟩ : BufTy).Contents (Elt Ideal)) (x3 : (⟨S512, .f32⟩ : BufTy).Contents (Elt Ideal))
  (x4 : (⟨S512x1024, .f32⟩ : BufTy).Contents (Elt Ideal)) (x5 : (⟨S1024, .f32⟩ : BufTy).Contents (Elt Ideal))
  (x6 : (⟨S1024x128, .f32⟩ : BufTy).Contents (Elt Ideal)) (x7 : (⟨S128, .f32⟩ : BufTy).Contents (Elt Ideal))

/-- The id the gather reads for token (b, s): the token id, the table's length added when negative. -/
theorem ids_apply (b : Fin 32) (s : Fin 1024) :
    val_main_v5 (F := Ideal) x0 (ix3 b s (0 : Fin 1))
      = Scalar.select (IntOp.cmpi .slt (x0 (ix2 b s)) 0#32) (IntOp.addi (x0 (ix2 b s)) 50257#32) (x0 (ix2 b s)) := by
  rw [val_main_v5_apply]
  have e : idx_main_v5 (ix3 b s (0 : Fin 1)) = ix2 b s :=
    funext fun a => Fin.ext (by match a with | ⟨0, _⟩ => rfl | ⟨1, _⟩ => rfl)
  rw [e]
  rfl

/-- The gathered array at (b, s, e): the table's row named by token (b, s), entry e. -/
theorem gathered_apply (b : Fin 32) (s : Fin 1024) (e : Fin 512) :
    val_main_v6 (F := Ideal) x0 x1 (ix3 b s e) = x1 (ix2 (tokenRow (x0 (ix2 b s))) e) := by
  unfold val_main_v6
  refine (LibRowGather.gather_grid_apply (R := 50257) (E := 512) (B := 32) (S := 1024) (by decide)
    gather_S50257x512_S32x1024x1_S32x1024x512_2_0_n_n_0_2_1512.wf x1 (val_main_v5 (F := Ideal) x0) b s e).trans ?_
  rw [ids_apply]
  rfl

/-- The first layer, rectified, at (b, s, c). -/
theorem layer1_apply (b : Fin 32) (s : Fin 1024) (c : Fin 512) :
    val_main_v11 (F := Ideal) x0 x1 x2 x3 (ix3 b s c)
      = max (affine (fun e => x1 (ix2 (tokenRow (x0 (ix2 b s))) e)) (fun e c => x2 (ix2 c e)) (fun c => x3 (ix1 c)) c)
          floor0 := by
  have el : ∀ e : Fin 512, lidx_main_v7 (ix3 b s c) e = ix3 b s e := fun e =>
    funext fun a => Fin.ext (by match a with | ⟨0, _⟩ => rfl | ⟨1, _⟩ => rfl | ⟨2, _⟩ => rfl)
  have er : ∀ e : Fin 512, ridx_main_v7 (ix3 b s c) e = ix2 c e := fun e =>
    funext fun a => Fin.ext (by match a with | ⟨0, _⟩ => rfl | ⟨1, _⟩ => rfl)
  have eb : idx_main_v8 (idx_main_v9 (ix3 b s c)) = ix1 c :=
    funext fun a => Fin.ext (by match a with | ⟨0, _⟩ => rfl)
  rw [val_main_v11_apply, val_main_v10_apply, val_main_v7_apply, val_main_v9_apply, val_main_v8_apply,
    val_main_call0_v0_apply, val_main_call0_cst_apply]
  simp only [el, er, eb, gathered_apply]
  rfl

/-- The second layer, rectified, at (b, s, k), over the first layer's units. -/
theorem layer2_apply (b : Fin 32) (s : Fin 1024) (k : Fin 1024) :
    val_main_v16 (F := Ideal) x0 x1 x2 x3 x4 x5 (ix3 b s k)
      = max (affine (fun c => val_main_v11 (F := Ideal) x0 x1 x2 x3 (ix3 b s c)) (fun c k => x4 (ix2 c k))
          (fun k => x5 (ix1 k)) k) floor0 := by
  have el : ∀ c : Fin 512, lidx_main_v12 (ix3 b s k) c = ix3 b s c := fun c =>
    funext fun a => Fin.ext (by match a with | ⟨0, _⟩ => rfl | ⟨1, _⟩ => rfl | ⟨2, _⟩ => rfl)
  have er : ∀ c : Fin 512, ridx_main_v12 (ix3 b s k) c = ix2 c k := fun c =>
    funext fun a => Fin.ext (by match a with | ⟨0, _⟩ => rfl | ⟨1, _⟩ => rfl)
  have eb : idx_main_v13 (idx_main_v14 (ix3 b s k)) = ix1 k :=
    funext fun a => Fin.ext (by match a with | ⟨0, _⟩ => rfl)
  rw [val_main_v16_apply, val_main_v15_apply, val_main_v12_apply, val_main_v14_apply, val_main_v13_apply,
    val_main_call1_v0_apply, val_main_call1_cst_apply]
  simp only [el, er, eb]
  rfl

/-- The third layer at (b, s, l), over the second layer's units. -/
theorem layer3_apply (b : Fin 32) (s : Fin 1024) (l : Fin 128) :
    val_main_v20 (F := Ideal) x0 x1 x2 x3 x4 x5 x6 x7 (ix3 b s l)
      = affine (fun k => val_main_v16 (F := Ideal) x0 x1 x2 x3 x4 x5 (ix3 b s k)) (fun k j => x6 (ix2 k j))
          (fun j => x7 (ix1 j)) l := by
  have el : ∀ k : Fin 1024, lidx_main_v17 (ix3 b s l) k = ix3 b s k := fun k =>
    funext fun a => Fin.ext (by match a with | ⟨0, _⟩ => rfl | ⟨1, _⟩ => rfl | ⟨2, _⟩ => rfl)
  have er : ∀ k : Fin 1024, ridx_main_v17 (ix3 b s l) k = ix2 k l := fun k =>
    funext fun a => Fin.ext (by match a with | ⟨0, _⟩ => rfl | ⟨1, _⟩ => rfl)
  have eb : idx_main_v18 (idx_main_v19 (ix3 b s l)) = ix1 l :=
    funext fun a => Fin.ext (by match a with | ⟨0, _⟩ => rfl)
  rw [val_main_v20_apply, val_main_v17_apply, val_main_v19_apply, val_main_v18_apply]
  simp only [el, er, eb]
  rfl

/-- The reference's result array is the logits array. -/
theorem result_eq :
    val_main_v21 (F := Ideal) x0 x1 x2 x3 x4 x5 x6 x7 = logits x0 x1 x2 x3 x4 x5 x6 x7 := by
  funext i
  obtain ⟨p, l, rfl⟩ : ∃ (p : Fin 32768) (l : Fin 128), i = ix2 p l := ⟨i 0, i 1, eq_ix2 i⟩
  have e21 : idx_main_v21 (ix2 p l)
      = ix3 (⟨p.val / 1024, by omega⟩ : Fin 32) (⟨p.val % 1024, Nat.mod_lt _ (by decide)⟩ : Fin 1024) l :=
    funext fun a => Fin.ext (by
      have hp := p.isLt
      have hl := l.isLt
      match a with
      | ⟨0, _⟩ => show (p.val * 128 + l.val) / 131072 = p.val / 1024; omega
      | ⟨1, _⟩ => show (p.val * 128 + l.val) / 128 % 1024 = p.val % 1024; omega
      | ⟨2, _⟩ => show (p.val * 128 + l.val) % 128 = l.val; omega)
  rw [val_main_v21_apply, e21, layer3_apply, logits_apply]
  unfold logitsAt rowLogits
  simp only [layer2_apply, layer1_apply]

end Cert.ReferenceIdeal.RefLogits

end
-- ==== Proof.lean ====
/-
  The kernel and its reference compute the same slot-labelling logits over the extended reals.

  Both programs look up one 512-entry embedding row per token (a negative token id counted from the end of
  the table, then the id clamped into the table: the same rule in both), and apply three dense layers,
  the first two rectified:  out = (max(max(x·Wcᵀ + bc, 0)·W1 + b1, 0))·W2 + b2,  one row per token, row
  b·1024 + s for token (b, s). The kernel gathers on a flattened id list, narrows rows and weights to a
  shorter float format (the identity on the extended reals), transposes the first weight beforehand, and
  computes 2048 rows per grid point with each product accumulated into a zero matrix; the reference keeps
  the [32, 1024] grid, contracts against the first weight's second axis, and reshapes at the end. Every
  product is a finite sum of the same terms on both sides, so the two results agree entry by entry with no
  assumption on the inputs: the precondition is never opened.

  The kernel's run with the result array named and the reference's run and its operations read at an index
  are the generated modules imported below. Written by hand: the specification (SlotLogits), a dense layer
  and a row gather read at an index (LibDenseRows, LibRowGather), the kernel's stored block at an entry
  (KernelBlock), its operand arrays as functions of the arguments (KernelOperands), the blocks assembled
  into the result array (KernelArray), and the reference's result at an entry (RefLogits). The idealization
  rewrote nothing, so that conjunct is trivial.
-/
import proofs.«141196_j5815385719211_2_alg».proof.Defs
import proofs.«141196_j5815385719211_2_alg».proof.Proof.Gen.Kernel
import proofs.«141196_j5815385719211_2_alg».proof.Proof.Gen.Kernel.Skeleton
import proofs.«141196_j5815385719211_2_alg».proof.Proof.Gen.Kernel.Launch
import proofs.«141196_j5815385719211_2_alg».proof.Proof.Gen.Kernel.Points
import proofs.«141196_j5815385719211_2_alg».proof.Proof.Gen.Kernel.Frame
import proofs.«141196_j5815385719211_2_alg».proof.Proof.Gen.KernelIdeal
import proofs.«141196_j5815385719211_2_alg».proof.Proof.Gen.KernelIdeal.Skeleton
import proofs.«141196_j5815385719211_2_alg».proof.Proof.Gen.KernelIdeal.Launch
import proofs.«141196_j5815385719211_2_alg».proof.Proof.Gen.KernelIdeal.Points
import proofs.«141196_j5815385719211_2_alg».proof.Proof.Gen.KernelIdeal.Frame
import proofs.«141196_j5815385719211_2_alg».proof.Proof.Gen.ReferenceIdeal
import proofs.«141196_j5815385719211_2_alg».proof.Proof.Gen.KernelIdeal.Value
import proofs.«141196_j5815385719211_2_alg».proof.Proof.Gen.ReferenceIdeal.Run
import proofs.«141196_j5815385719211_2_alg».proof.Proof.Gen.ReferenceIdeal.Read
import proofs.«141196_j5815385719211_2_alg».proof.Proof.Gen.Pre_finite_inputs
import proofs.«141196_j5815385719211_2_alg».proof.Proof.KernelArray
import proofs.«141196_j5815385719211_2_alg».proof.Proof.RefLogits
import Idealize.ShloMosaic.Adequacy
import Idealize.ShloMosaic.Init

noncomputable section

namespace Cert.Proof

open Idealize.ShloMosaic Idealize.ShloMosaic.TcCoe Idealize.SL.Sem

/-- The word-level kernel runs, faults nowhere, and leaves its arguments as they were. -/
theorem frame_kernel : Cert.frame_Kernel := fun m ρ _ => Cert.Kernel.Gen.frame m ρ

/-- The same of the kernel read over the extended reals. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From memories that agree on the arguments both programs end with the logits of those arguments. -/
theorem algebraic : Cert.algebraic_KernelIdeal_ReferenceIdeal := by
  intro m ρ m' ρ' _ hagree
  refine ⟨fun c => Cert.SlotLogits.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Array.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7⟩ := hagree c
  rw [(h c).1, Cert.ReferenceIdeal.Read.val_main_v21_eq, Cert.ReferenceIdeal.RefLogits.result_eq,
    h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
